-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 64
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S100000x128, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .bf16⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .bf16⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, with its result named.

  @main is four segments: a stretch of host operations, the first pallas_call, a second stretch of host operations, the
  second pallas_call. The buffer contents at the four boundaries are a fold from the launch memory: a host stretch's
  operations applied in order, a pallas_call's arrays replaced by what its write-backs leave. Every weakly fair
  execution terminates with every unscoped buffer at the last boundary's contents; read at the result buffer this
  names the result, read at an argument it gives the argument back.
-/
import proofs.«173662_j33724083208194_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.SageDense.lean ====
/-
  One dense layer of a mean-aggregating graph convolution, as a function of whole arrays.

  For a node feature matrix `X`, the matrix `A` of neighbour sums, the column `D` of inverse degrees, two
  weight matrices `Ws`, `Wn` (already laid out contraction-axis first) and a bias row `B`, entry `(r, j)` of
  the layer is

      act ( Σₖ X[r,k]·Ws[k,j]  +  Σₖ (A[r,k]·D[r,0])·Wn[k,j]  +  B[0,j] ).

  Row `r` of the result depends on row `r` of `X`, `A`, `D` only: this is why a block of rows of the layer is
  the layer of the blocks of rows, whatever the number of rows `R`.
-/
import Idealize.ShloMosaic.PureOps.Ideal
import Idealize.ShloMosaic.Lib.ValueIdx

noncomputable section

namespace Cert.Sage

open Idealize.ShloMosaic Idealize.ShloMosaic.ValueIdx

/-- The layer over `R` rows, index by index. -/
def dense (R : ℕ) (act : EReal → EReal) (X A : (⟨2, ![R, 128]⟩ : Shape).Idx → EReal)
    (D : (⟨2, ![R, 1]⟩ : Shape).Idx → EReal) (Ws Wn : (⟨2, ![128, 128]⟩ : Shape).Idx → EReal)
    (B : (⟨2, ![1, 128]⟩ : Shape).Idx → EReal) : (⟨2, ![R, 128]⟩ : Shape).Idx → EReal := fun i =>
  act ((∑ k : Fin 128, X (ix2 (i 0) k) * Ws (ix2 k (i 1)))
      + (∑ k : Fin 128, (A (ix2 (i 0) k) * D (ix2 (i 0) (0 : Fin 1))) * Wn (ix2 k (i 1)))
      + B (ix2 (0 : Fin 1) (i 1)))

/-- The layer at `(r, j)`, with the coordinates named. -/
theorem dense_ix2 (R : ℕ) (act : EReal → EReal) (X A : (⟨2, ![R, 128]⟩ : Shape).Idx → EReal)
    (D : (⟨2, ![R, 1]⟩ : Shape).Idx → EReal) (Ws Wn : (⟨2, ![128, 128]⟩ : Shape).Idx → EReal)
    (B : (⟨2, ![1, 128]⟩ : Shape).Idx → EReal) (r : Fin R) (j : Fin 128) :
    dense R act X A D Ws Wn B (ix2 r j)
      = act ((∑ k : Fin 128, X (ix2 r k) * Ws (ix2 k j))
          + (∑ k : Fin 128, (A (ix2 r k) * D (ix2 r (0 : Fin 1))) * Wn (ix2 k j))
          + B (ix2 (0 : Fin 1) j)) := rfl

/-- A BLOCK OF ROWS OF THE LAYER IS THE LAYER OF THE BLOCKS OF ROWS. If `x`, `a`, `d` are rows
    `base, base + 1, …` of `X`, `A`, `D` and the weights and the bias are the same, then entry `j` of the layer
    over the blocks is entry `i` of the layer over the whole arrays whenever `i` is `j` moved down by `base` rows:
    an entry of the layer reads only its own row of the three row-indexed operands. -/
theorem dense_block (act : EReal → EReal) (R P : ℕ) (X A : (⟨2, ![R, 128]⟩ : Shape).Idx → EReal)
    (D : (⟨2, ![R, 1]⟩ : Shape).Idx → EReal) (Ws Wn : (⟨2, ![128, 128]⟩ : Shape).Idx → EReal)
    (B : (⟨2, ![1, 128]⟩ : Shape).Idx → EReal)
    (x a : (⟨2, ![P, 128]⟩ : Shape).Idx → EReal) (d : (⟨2, ![P, 1]⟩ : Shape).Idx → EReal)
    (ws wn : (⟨2, ![128, 128]⟩ : Shape).Idx → EReal) (b : (⟨2, ![1, 128]⟩ : Shape).Idx → EReal)
    (base : ℕ) (r : Fin R) (p : Fin P) (c : Fin 128) (hr : r.val = base + p.val)
    (hx : ∀ (p : Fin P) (k : Fin 128) (r : Fin R), r.val = base + p.val → x (ix2 p k) = X (ix2 r k))
    (ha : ∀ (p : Fin P) (k : Fin 128) (r : Fin R), r.val = base + p.val → a (ix2 p k) = A (ix2 r k))
    (hd : ∀ (p : Fin P) (r : Fin R), r.val = base + p.val → d (ix2 p (0 : Fin 1)) = D (ix2 r (0 : Fin 1)))
    (hws : ws = Ws) (hwn : wn = Wn) (hb : b = B) :
    dense P act x a d ws wn b (ix2 p c) = dense R act X A D Ws Wn B (ix2 r c) := by
  subst hws hwn hb
  rw [dense_ix2, dense_ix2]
  have hX : ∀ k, x (ix2 p k) = X (ix2 r k) := fun k => hx p k r hr
  have hA : ∀ k, a (ix2 p k) = A (ix2 r k) := fun k => ha p k r hr
  have hD : d (ix2 p (0 : Fin 1)) = D (ix2 r (0 : Fin 1)) := hd p r hr
  simp only [hX, hA, hD]

/-- The same for entries not yet split into coordinates: `i` is `j` moved down by `base` rows, same column. -/
theorem dense_block_idx (act : EReal → EReal) (R P : ℕ) (X A : (⟨2, ![R, 128]⟩ : Shape).Idx → EReal)
    (D : (⟨2, ![R, 1]⟩ : Shape).Idx → EReal) (Ws Wn : (⟨2, ![128, 128]⟩ : Shape).Idx → EReal)
    (B : (⟨2, ![1, 128]⟩ : Shape).Idx → EReal)
    (x a : (⟨2, ![P, 128]⟩ : Shape).Idx → EReal) (d : (⟨2, ![P, 1]⟩ : Shape).Idx → EReal)
    (ws wn : (⟨2, ![128, 128]⟩ : Shape).Idx → EReal) (b : (⟨2, ![1, 128]⟩ : Shape).Idx → EReal)
    (base : ℕ) (j : (⟨2, ![P, 128]⟩ : Shape).Idx) (i : (⟨2, ![R, 128]⟩ : Shape).Idx)
    (h0 : (i 0).val = base + (j 0).val) (h1 : (i 1).val = (j 1).val)
    (hx : ∀ (p : Fin P) (k : Fin 128) (r : Fin R), r.val = base + p.val → x (ix2 p k) = X (ix2 r k))
    (ha : ∀ (p : Fin P) (k : Fin 128) (r : Fin R), r.val = base + p.val → a (ix2 p k) = A (ix2 r k))
    (hd : ∀ (p : Fin P) (r : Fin R), r.val = base + p.val → d (ix2 p (0 : Fin 1)) = D (ix2 r (0 : Fin 1)))
    (hws : ws = Ws) (hwn : wn = Wn) (hb : b = B) :
    dense P act x a d ws wn b j = dense R act X A D Ws Wn B i := by
  have ej : j = ix2 (j 0) (j 1) := eq_ix2 j
  have ei : i = ix2 (i 0) (j 1) := (eq_ix2 i).trans (congrArg (ix2 (i 0)) (Fin.ext h1))
  exact (congrArg (dense P act x a d ws wn b) ej).trans
    ((dense_block act R P X A D Ws Wn B x a d ws wn b base (i 0) (j 0) (j 1) h0 hx ha hd hws hwn hb).trans
      (congrArg (dense R act X A D Ws Wn B) ei.symm))

/-- The rectifier on the extended reals. -/
def relu (v : EReal) : EReal := max v 0

end Cert.Sage

end
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.DensePayload.lean ====
/-
  What the two kernel bodies compute, entry by entry.

  Each body takes a block of 5000 rows of the features `x`, of the neighbour sums `a` and of the inverse-degree
  column `d`, the two whole 128×128 weight matrices and the bias row, and stores
  `act (x·Ws + (a ⊙ d)·Wn + b)` — the rectifier in the first layer, nothing in the second. A matrix product into the
  zero accumulator is, at the exact values, the plain sum over the contraction axis; a change of float format is
  the identity there. So each body's stored block is the dense layer of its 5000-row blocks.
-/
import proofs.«173662_j33724083208194_2_alg».proof.Proof.Gen.KernelIdeal.Skeleton
import proofs.«173662_j33724083208194_2_alg».proof.Proof.SageDense
import proofs.«173662_j33724083208194_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Idealize.ShloMosaic Idealize.ShloMosaic.ValueIdx

/-! ## A block of rows against a whole weight matrix -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000×128 block with a 128×128 matrix into the zero accumulator, at `(p, q)`: row `p` of the
    block against column `q` of the matrix, summed over the 128 contraction positions. -/
theorem matmul_rows (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The two stored blocks -/

/-- The first layer's stored block, at `(p, q)`: the rectified dense layer of the 5000-row blocks. The format changes
    are the identity at the exact values, the column of inverse degrees is broadcast along its row, the bias row along
    the rows, and the zero the rectifier compares with is the real `0`. -/
theorem k0_pay1_apply (x0 x1 : Vec Ideal S5000x128 .f32) (x2 : Vec Ideal S5000x1 .f32) (x3 x4 : Vec Ideal S128x128 .bf16)
    (x5 : Vec Ideal S1x128 .f32) (p : Fin 5000) (q : Fin 128) :
    k0_pay1 (F := Ideal) x0 x1 x2 x3 x4 x5 (ix2 p q) = Cert.Sage.dense 5000 Cert.Sage.relu x0 x1 x2 x3 x4 x5 (ix2 p q) := by
  unfold k0_pay1
  rw [Cert.Sage.dense_ix2]
  simp only [shapeCast_self, maximumf_apply, addf_apply, matmul_rows, truncf_apply, mulf_apply, broadcast_apply,
    Cert.Lib.broadcastTo_a1_ab_apply, broadcastTo_1b_ab_apply]
  unfold Cert.Sage.relu
  show max _ (Ideal.ofBits .f32 0x00000000#32) = max _ 0
  rw [Ideal.ofBits_zero_f32]

/-- The second layer's stored block, at `(p, q)`: the dense layer of the 5000-row blocks with no activation. -/
theorem k1_pay1_apply (x0 x1 : Vec Ideal S5000x128 .f32) (x2 : Vec Ideal S5000x1 .f32) (x3 x4 : Vec Ideal S128x128 .bf16)
    (x5 : Vec Ideal S1x128 .f32) (p : Fin 5000) (q : Fin 128) :
    k1_pay1 (F := Ideal) x0 x1 x2 x3 x4 x5 (ix2 p q) = Cert.Sage.dense 5000 id x0 x1 x2 x3 x4 x5 (ix2 p q) := by
  unfold k1_pay1
  rw [Cert.Sage.dense_ix2]
  simp only [shapeCast_self, addf_apply, matmul_rows, truncf_apply, mulf_apply,
    Cert.Lib.broadcastTo_a1_ab_apply, broadcastTo_1b_ab_apply, id]

/-- Both, as equations of whole blocks. -/
theorem k0_pay1_eq (x0 x1 : Vec Ideal S5000x128 .f32) (x2 : Vec Ideal S5000x1 .f32) (x3 x4 : Vec Ideal S128x128 .bf16)
    (x5 : Vec Ideal S1x128 .f32) :
    k0_pay1 (F := Ideal) x0 x1 x2 x3 x4 x5 = Cert.Sage.dense 5000 Cert.Sage.relu x0 x1 x2 x3 x4 x5 :=
  funext fun j => by rw [eq_ix2 j]; exact k0_pay1_apply x0 x1 x2 x3 x4 x5 (j 0) (j 1)

theorem k1_pay1_eq (x0 x1 : Vec Ideal S5000x128 .f32) (x2 : Vec Ideal S5000x1 .f32) (x3 x4 : Vec Ideal S128x128 .bf16)
    (x5 : Vec Ideal S1x128 .f32) :
    k1_pay1 (F := Ideal) x0 x1 x2 x3 x4 x5 = Cert.Sage.dense 5000 id x0 x1 x2 x3 x4 x5 :=
  funext fun j => by rw [eq_ix2 j]; exact k1_pay1_apply x0 x1 x2 x3 x4 x5 (j 0) (j 1)

end Cert.KernelIdeal.Dense

end
-- ==== Proof.RegionFirst.lean ====
/-
  The first pallas_call, read as a value: the array its output window ends holding.

  The output window's block at grid point `t` is rows `5000·t … 5000·t + 4999` of the output array, all 128 columns;
  the three row-indexed input windows move with it, the two weight matrices and the bias row stay put. What the body
  leaves in the staging buffer is the dense layer of the input blocks, and a block of rows of the dense layer of the
  whole arrays is the dense layer of the blocks of rows. The twenty blocks cover the 100000 rows (row `r` lies in
  block `r / 5000`), so the array after the region IS the dense layer of the arrays the region was entered with.
  Everything is stated for arbitrary entry contents `V`.
-/
import proofs.«173662_j33724083208194_2_alg».proof.Proof.Gen.KernelIdeal.Frame
import proofs.«173662_j33724083208194_2_alg».proof.Proof.DensePayload
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The dense layer of the arrays the region is entered with. -/
def layer (c : Dev nD) : S100000x128.Idx → EReal :=
  Cert.Sage.dense 100000 Cert.Sage.relu (V c main_arg0) (V c main_v28) (V c main_v8) (V c main_v10) (V c main_v12) (V c main_v29)

/-- The printed index maps, decided over the twenty grid points: the row-indexed windows and the output are at block
    row `t`, block column `0`; the weights and the bias are at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the dense layer of the entry arrays. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero offsets_zero]
  simp only [View.ld_unit_zero (S := S5000x128) offsets_zero, View.ld_unit_zero (S := S5000x1) offsets_zero,
    View.ld_unit_zero (S := S128x128) offsets_zero, View.ld_unit_zero (S := S1x128) offsets_zero]
  rw [Cert.KernelIdeal.Dense.k0_pay1_eq]
  obtain ⟨e00, e01, e10, e11, e20, e21, e30, e31, e40, e41, e50, e51, e60, e61⟩ := block_indices t
  funext j
  have hj0 : (j 0).val < 5000 := (j 0).isLt
  have hj1 : (j 1).val < 128 := (j 1).isLt
  show Cert.Sage.dense 5000 Cert.Sage.relu (iblk0 V c 0 t) (iblk0 V c 1 t) (iblk0 V c 2 t) (iblk0 V c 3 t) (iblk0 V c 4 t) (iblk0 V c 5 t) j
      = layer V c (((cfg0.win 6).blk t).view.emb j)
  unfold layer
  refine Cert.Sage.dense_block_idx Cert.Sage.relu 100000 5000 (V c main_arg0) (V c main_v28) (V c main_v8) (V c main_v10) (V c main_v12) (V c main_v29)
    (iblk0 V c 0 t) (iblk0 V c 1 t) (iblk0 V c 2 t) (iblk0 V c 3 t) (iblk0 V c 4 t) (iblk0 V c 5 t)
    (t.val * 5000) j (((cfg0.win 6).blk t).view.emb j) ?_ ?_ ?_ ?_ ?_ ?_ ?_ ?_
  · show win0_6.index t (0 : Fin 2) * 5000 + 1 * (j 0).val = t.val * 5000 + (j 0).val
    omega
  · show win0_6.index t (1 : Fin 2) * 128 + 1 * (j 1).val = (j 1).val
    omega
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · intro p k r hr
    show V c main_v28 (((cfg0.win 1).blk t).view.emb (ix2 p k)) = V c main_v28 (ix2 r k)
    refine congrArg (V c main_v28) (funext fun a => Fin.ext ?_)
    match a with
    | ⟨0, _⟩ => show win0_1.index t (0 : Fin 2) * 5000 + 1 * p.val = r.val; omega
    | ⟨1, _⟩ => show win0_1.index t (1 : Fin 2) * 128 + 1 * k.val = k.val; omega
  · intro p r hr
    show V c main_v8 (((cfg0.win 2).blk t).view.emb (ix2 p (0 : Fin 1))) = V c main_v8 (ix2 r (0 : Fin 1))
    refine congrArg (V c main_v8) (funext fun a => Fin.ext ?_)
    match a with
    | ⟨0, _⟩ => show win0_2.index t (0 : Fin 2) * 5000 + 1 * p.val = r.val; omega
    | ⟨1, _⟩ => show win0_2.index t (1 : Fin 2) * 1 + 1 * 0 = 0; omega
  · funext y
    show V c main_v10 (((cfg0.win 3).blk t).view.emb y) = V c main_v10 y
    refine congrArg (V c main_v10) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v12 (((cfg0.win 4).blk t).view.emb y) = V c main_v12 y
    refine congrArg (V c main_v12) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v29 (((cfg0.win 5).blk t).view.emb y) = V c main_v29 y
    refine congrArg (V c main_v29) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- An entry of the output array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v30).slice (win0_6.rect t)).set ↔ _
  rw [View.set_slice_whole, Rect.mem_set_unit]
  exact Iff.rfl

/-- Every entry of the output array lies in the block of the point `row / 5000`, which writes back. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, -, -, -, -, -, -, e60, e61⟩ := block_indices t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE OUTPUT ARRAY AFTER THE REGION is the dense layer of the arrays the region was entered with. -/
theorem array_eq (c : Dev nD) : (dat0 V c).arrAt 6 cfg0.N = layer V c :=
  (dat0 V c).arrAt_eq_of_cover 6 (layer V c) (fun t _ => flushed_eq V c t) covered

end Cert.KernelIdeal.Region0

end
-- ==== Proof.RegionSecond.lean ====
/-
  The second pallas_call, read as a value: the array its output window ends holding.

  The output window's block at grid point `t` is rows `5000·t … 5000·t + 4999` of the output array, all 128 columns;
  the three row-indexed input windows move with it, the two weight matrices and the bias row stay put. What the body
  leaves in the staging buffer is the dense layer of the input blocks, and a block of rows of the dense layer of the
  whole arrays is the dense layer of the blocks of rows. The twenty blocks cover the 100000 rows (row `r` lies in
  block `r / 5000`), so the array after the region IS the dense layer of the arrays the region was entered with.
  Everything is stated for arbitrary entry contents `V`.
-/
import proofs.«173662_j33724083208194_2_alg».proof.Proof.Gen.KernelIdeal.Frame
import proofs.«173662_j33724083208194_2_alg».proof.Proof.DensePayload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The dense layer of the arrays the region is entered with. -/
def layer (c : Dev nD) : S100000x128.Idx → EReal :=
  Cert.Sage.dense 100000 id (V c main_v30) (V c main_v42) (V c main_v8) (V c main_v14) (V c main_v16) (V c main_v43)

/-- The printed index maps, decided over the twenty grid points: the row-indexed windows and the output are at block
    row `t`, block column `0`; the weights and the bias are at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the dense layer of the entry arrays. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero offsets_zero]
  simp only [View.ld_unit_zero (S := S5000x128) offsets_zero, View.ld_unit_zero (S := S5000x1) offsets_zero,
    View.ld_unit_zero (S := S128x128) offsets_zero, View.ld_unit_zero (S := S1x128) offsets_zero]
  rw [Cert.KernelIdeal.Dense.k1_pay1_eq]
  obtain ⟨e00, e01, e10, e11, e20, e21, e30, e31, e40, e41, e50, e51, e60, e61⟩ := block_indices t
  funext j
  have hj0 : (j 0).val < 5000 := (j 0).isLt
  have hj1 : (j 1).val < 128 := (j 1).isLt
  show Cert.Sage.dense 5000 id (iblk1 V c 0 t) (iblk1 V c 1 t) (iblk1 V c 2 t) (iblk1 V c 3 t) (iblk1 V c 4 t) (iblk1 V c 5 t) j
      = layer V c (((cfg1.win 6).blk t).view.emb j)
  unfold layer
  refine Cert.Sage.dense_block_idx id 100000 5000 (V c main_v30) (V c main_v42) (V c main_v8) (V c main_v14) (V c main_v16) (V c main_v43)
    (iblk1 V c 0 t) (iblk1 V c 1 t) (iblk1 V c 2 t) (iblk1 V c 3 t) (iblk1 V c 4 t) (iblk1 V c 5 t)
    (t.val * 5000) j (((cfg1.win 6).blk t).view.emb j) ?_ ?_ ?_ ?_ ?_ ?_ ?_ ?_
  · show win1_6.index t (0 : Fin 2) * 5000 + 1 * (j 0).val = t.val * 5000 + (j 0).val
    omega
  · show win1_6.index t (1 : Fin 2) * 128 + 1 * (j 1).val = (j 1).val
    omega
  · intro p k r hr
    show V c main_v30 (((cfg1.win 0).blk t).view.emb (ix2 p k)) = V c main_v30 (ix2 r k)
    refine congrArg (V c main_v30) (funext fun a => Fin.ext ?_)
    match a with
    | ⟨0, _⟩ => show win1_0.index t (0 : Fin 2) * 5000 + 1 * p.val = r.val; omega
    | ⟨1, _⟩ => show win1_0.index t (1 : Fin 2) * 128 + 1 * k.val = k.val; omega
  · intro p k r hr
    show V c main_v42 (((cfg1.win 1).blk t).view.emb (ix2 p k)) = V c main_v42 (ix2 r k)
    refine congrArg (V c main_v42) (funext fun a => Fin.ext ?_)
    match a with
    | ⟨0, _⟩ => show win1_1.index t (0 : Fin 2) * 5000 + 1 * p.val = r.val; omega
    | ⟨1, _⟩ => show win1_1.index t (1 : Fin 2) * 128 + 1 * k.val = k.val; omega
  · intro p r hr
    show V c main_v8 (((cfg1.win 2).blk t).view.emb (ix2 p (0 : Fin 1))) = V c main_v8 (ix2 r (0 : Fin 1))
    refine congrArg (V c main_v8) (funext fun a => Fin.ext ?_)
    match a with
    | ⟨0, _⟩ => show win1_2.index t (0 : Fin 2) * 5000 + 1 * p.val = r.val; omega
    | ⟨1, _⟩ => show win1_2.index t (1 : Fin 2) * 1 + 1 * 0 = 0; omega
  · funext y
    show V c main_v14 (((cfg1.win 3).blk t).view.emb y) = V c main_v14 y
    refine congrArg (V c main_v14) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v16 (((cfg1.win 4).blk t).view.emb y) = V c main_v16 y
    refine congrArg (V c main_v16) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v43 (((cfg1.win 5).blk t).view.emb y) = V c main_v43 y
    refine congrArg (V c main_v43) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega

/-- An entry of the output array is in point `t`'s block iff each coordinate is in the block's range on its axis. -/
theorem mem_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v44).slice (win1_6.rect t)).set ↔ _
  rw [View.set_slice_whole, Rect.mem_set_unit]
  exact Iff.rfl

/-- Every entry of the output array lies in the block of the point `row / 5000`, which writes back. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, -, -, -, -, e60, e61⟩ := block_indices t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- THE OUTPUT ARRAY AFTER THE REGION is the dense layer of the arrays the region was entered with. -/
theorem array_eq (c : Dev nD) : (dat1 V c).arrAt 6 cfg1.N = layer V c :=
  (dat1 V c).arrAt_eq_of_cover 6 (layer V c) (fun t _ => flushed_eq V c t) covered

end Cert.KernelIdeal.Region1

end
-- ==== Proof.KernelHost.lean ====
/-
  The kernel program's host side, read as functions of the buffers it is entered with.

  Around the two pallas_calls @main computes, with ordinary array operations:
  the inverse-degree column `1 / max(deg, 1)`, `deg` the scatter-add of ones along the edge targets, reshaped to a
  column; each weight matrix transposed (contraction axis first); each bias reshaped to a row; and, once per layer, the
  neighbour sum — the rows of the node features gathered along the edge sources (a negative source wrapped once by the
  number of nodes) and scatter-added along the edge targets into zeros. The changes of float format that the program
  makes around the gather and on the weights are the identity at the exact values, but they are part of the printed
  operations, so the definitions below carry them.
  Each stretch of host operations is read back over ARBITRARY entry contents `W`: the buffer an operation writes holds
  the operation's function of the buffers it reads, every other buffer is kept.
-/
import proofs.«173662_j33724083208194_2_alg».proof.Proof.Gen.KernelIdeal.Launch
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- The edge sources as gather indices: a negative source is moved up by the number of nodes, then the vector is made a
    column of one-entry index vectors. -/
def sourceIdx (src : (⟨S1600000, .i32⟩ : BufTy).Contents (Elt Ideal)) : (⟨S1600000x1, .i32⟩ : BufTy).Contents (Elt Ideal) :=
  broadcastInDim S1600000x1 ![0] Facts₀.bcast_S1600000_S1600000x1_0
    (select (cmpi .slt src (broadcastInDim S1600000 ![] Facts₀.bcast_S_S1600000 (constantI S_ 32 0#32)))
      (addi src (broadcastInDim S1600000 ![] Facts₀.bcast_S_S1600000 (constantI S_ 32 100000#32))) src)

/-- The neighbour sum of the node features `x`: row `src e` of `x` added into row `dst e` of zeros, over the edges. -/
def neighbourSum (x : (⟨S100000x128, .f32⟩ : BufTy).Contents (Elt Ideal)) (src dst : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] Facts₀.bcast_S_S100000x128 (constant (F := Ideal) S_ .f32 0x00000000#32))
    (broadcastInDim S1600000x1 ![0] Facts₀.bcast_S1600000_S1600000x1_0 dst)
    (extf .f32 (Host.gather gather_S100000x128_S1600000x1_S1600000x128_1_0_n_n_0_1_1128
      (truncf .bf16 x Facts₀.bitsLt_bf16_f32) (sourceIdx src)) Facts₀.bitsLt_bf16_f32)

/-- The inverse degrees `1 / max(deg, 1)`, before the reshape to a column. -/
def invDegree (dst : (⟨S1600000, .i32⟩ : BufTy).Contents (Elt Ideal)) : (⟨S100000, .f32⟩ : BufTy).Contents (Elt Ideal) :=
  Host.divf (broadcastInDim S100000 ![] Facts₀.bcast_S_S100000 (constant (F := Ideal) S_ .f32 0x3F800000#32))
    (maximumf
      (Host.scatterAdd scatter_S100000_S1600000x1_S1600000_n_0_0_1
        (broadcastInDim S100000 ![] Facts₀.bcast_S_S100000 (constant (F := Ideal) S_ .f32 0x00000000#32))
        (broadcastInDim S1600000x1 ![0] Facts₀.bcast_S1600000_S1600000x1_0 dst)
        (broadcastInDim S1600000 ![] Facts₀.bcast_S_S1600000 (constant (F := Ideal) S_ .f32 0x3F800000#32)))
      (broadcastInDim S100000 ![] Facts₀.bcast_S_S100000 (constant (F := Ideal) S_ .f32 0x3F800000#32)))

/-- The inverse degrees as a column. -/
def invDegreeCol (dst : (⟨S1600000, .i32⟩ : BufTy).Contents (Elt Ideal)) : (⟨S100000x1, .f32⟩ : BufTy).Contents (Elt Ideal) :=
  shapeCast S100000x1 (invDegree dst) Facts₀.shapeCasts_S100000_S100000x1

/-- A weight matrix laid out contraction axis first. -/
def weightT (w : (⟨S128x128, .f32⟩ : BufTy).Contents (Elt Ideal)) : (⟨S128x128, .bf16⟩ : BufTy).Contents (Elt Ideal) :=
  truncf (F := Ideal) .bf16 (transpose S128x128 [1, 0] w Facts₀.transposes_S128x128_S128x128_1_0) Facts₀.bitsLt_bf16_f32

/-- A bias as a row. -/
def biasRow (b : (⟨S128, .f32⟩ : BufTy).Contents (Elt Ideal)) : (⟨S1x128, .f32⟩ : BufTy).Contents (Elt Ideal) :=
  shapeCast S1x128 b Facts₀.shapeCasts_S128_S1x128

variable (W : Valuation τ sig (Elt Ideal))

/-! ## The first stretch: everything before the first pallas_call -/

theorem first_neighbourSum : after (hostOps0 (F := Ideal)) W (Proc.devRef .tc main_v28)
    = neighbourSum (W (Proc.devRef .tc main_arg0)) (W (Proc.devRef .tc main_arg1)) (W (Proc.devRef .tc main_arg2)) := by
  after_results_simp <;> rfl
theorem first_invDegreeCol : after (hostOps0 (F := Ideal)) W (Proc.devRef .tc main_v8) = invDegreeCol (W (Proc.devRef .tc main_arg2)) := by
  after_results_simp <;> rfl
theorem first_weight_v10 : after (hostOps0 (F := Ideal)) W (Proc.devRef .tc main_v10) = weightT (W (Proc.devRef .tc main_arg3)) := by
  after_results_simp <;> rfl
theorem first_weight_v12 : after (hostOps0 (F := Ideal)) W (Proc.devRef .tc main_v12) = weightT (W (Proc.devRef .tc main_arg4)) := by
  after_results_simp <;> rfl
theorem first_weight_v14 : after (hostOps0 (F := Ideal)) W (Proc.devRef .tc main_v14) = weightT (W (Proc.devRef .tc main_arg6)) := by
  after_results_simp <;> rfl
theorem first_weight_v16 : after (hostOps0 (F := Ideal)) W (Proc.devRef .tc main_v16) = weightT (W (Proc.devRef .tc main_arg7)) := by
  after_results_simp <;> rfl
theorem first_biasRow : after (hostOps0 (F := Ideal)) W (Proc.devRef .tc main_v29) = biasRow (W (Proc.devRef .tc main_arg5)) := by
  after_results_simp <;> rfl
theorem first_keeps_arg0 : after (hostOps0 (F := Ideal)) W (Proc.devRef .tc main_arg0) = W (Proc.devRef .tc main_arg0) := by
  after_results_simp <;> rfl
theorem first_keeps_arg1 : after (hostOps0 (F := Ideal)) W (Proc.devRef .tc main_arg1) = W (Proc.devRef .tc main_arg1) := by
  after_results_simp <;> rfl
theorem first_keeps_arg2 : after (hostOps0 (F := Ideal)) W (Proc.devRef .tc main_arg2) = W (Proc.devRef .tc main_arg2) := by
  after_results_simp <;> rfl
theorem first_keeps_arg8 : after (hostOps0 (F := Ideal)) W (Proc.devRef .tc main_arg8) = W (Proc.devRef .tc main_arg8) := by
  after_results_simp <;> rfl

/-! ## The second stretch: between the two pallas_calls -/

theorem second_neighbourSum : after (hostOps1 (F := Ideal)) W (Proc.devRef .tc main_v42)
    = neighbourSum (W (Proc.devRef .tc main_v30)) (W (Proc.devRef .tc main_arg1)) (W (Proc.devRef .tc main_arg2)) := by
  after_results_simp <;> rfl
theorem second_biasRow : after (hostOps1 (F := Ideal)) W (Proc.devRef .tc main_v43) = biasRow (W (Proc.devRef .tc main_arg8)) := by
  after_results_simp <;> rfl
theorem second_keeps_v30 : after (hostOps1 (F := Ideal)) W (Proc.devRef .tc main_v30) = W (Proc.devRef .tc main_v30) := by
  after_results_simp <;> rfl
theorem second_keeps_v8 : after (hostOps1 (F := Ideal)) W (Proc.devRef .tc main_v8) = W (Proc.devRef .tc main_v8) := by
  after_results_simp <;> rfl
theorem second_keeps_v14 : after (hostOps1 (F := Ideal)) W (Proc.devRef .tc main_v14) = W (Proc.devRef .tc main_v14) := by
  after_results_simp <;> rfl
theorem second_keeps_v16 : after (hostOps1 (F := Ideal)) W (Proc.devRef .tc main_v16) = W (Proc.devRef .tc main_v16) := by
  after_results_simp <;> rfl

end Cert.KernelIdeal.Host

end
-- ==== Proof.KernelValue.lean ====
/-
  The kernel program's result as one function of its arguments.

  The last boundary's contents at the result buffer are what the second pallas_call's write-backs leave: the dense
  layer, no activation, of the arrays that region is entered with. Those are: the first pallas_call's output — the
  rectified dense layer of the arrays IT was entered with —, the neighbour sum of that output, and the inverse-degree
  column, the second pair of weights and the second bias row that the first stretch of host operations had already
  computed and that nothing since has written. Walking the fold back to the launch memory gives the result as
  `result` of the nine argument arrays.
-/
import proofs.«173662_j33724083208194_2_alg».proof.Proof.Gen.KernelIdeal.Frame
import proofs.«173662_j33724083208194_2_alg».proof.Proof.RegionFirst
import proofs.«173662_j33724083208194_2_alg».proof.Proof.RegionSecond
import proofs.«173662_j33724083208194_2_alg».proof.Proof.KernelHost

set_option maxRecDepth 16384

noncomputable section

namespace Cert.KernelIdeal.Whole

open Cert.KernelIdeal Cert.KernelIdeal.Gen Cert.KernelIdeal.Host
open Idealize.ShloMosaic Idealize.ShloMosaic.TcCoe Idealize.SL.Sem
open Idealize.ShloMosaic.Pipeline (Dat Cfg Window)

/-- The hidden features: the first layer, rectified. -/
def hidden (feat : (⟨S100000x128, .f32⟩ : BufTy).Contents (Elt Ideal)) (src dst : (⟨S1600000, .i32⟩ : BufTy).Contents (Elt Ideal))
    (ws wn : (⟨S128x128, .f32⟩ : BufTy).Contents (Elt Ideal)) (b : (⟨S128, .f32⟩ : BufTy).Contents (Elt Ideal)) : (⟨S100000x128, .f32⟩ : BufTy).Contents (Elt Ideal) :=
  Cert.Sage.dense 100000 Cert.Sage.relu feat (neighbourSum feat src dst) (invDegreeCol dst) (weightT ws) (weightT wn) (biasRow b)

/-- The result: the second layer of the hidden features, with the same edges and inverse degrees. -/
def result (feat : (⟨S100000x128, .f32⟩ : BufTy).Contents (Elt Ideal)) (src dst : (⟨S1600000, .i32⟩ : BufTy).Contents (Elt Ideal))
    (ws1 wn1 : (⟨S128x128, .f32⟩ : BufTy).Contents (Elt Ideal)) (b1 : (⟨S128, .f32⟩ : BufTy).Contents (Elt Ideal))
    (ws2 wn2 : (⟨S128x128, .f32⟩ : BufTy).Contents (Elt Ideal)) (b2 : (⟨S128, .f32⟩ : BufTy).Contents (Elt Ideal)) : (⟨S100000x128, .f32⟩ : BufTy).Contents (Elt Ideal) :=
  Cert.Sage.dense 100000 id (hidden feat src dst ws1 wn1 b1) (neighbourSum (hidden feat src dst ws1 wn1 b1) src dst)
    (invDegreeCol dst) (weightT ws2) (weightT wn2) (biasRow b2)

variable (m : (ℓ : Loc nD τ sig) → Buf (Elt Ideal) ℓ) (ρ : Dev nD → PrngReg)

/-! ## After the first pallas_call -/

/-- The first pallas_call's output array holds the hidden features of the arguments. -/
theorem hidden_array (c : Dev nD) :
    W2 m ρ c (Proc.devRef .tc main_v30) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((Cert.KernelIdeal.Region0.array_eq (V1 m ρ) c).trans ?_)
  unfold Cert.KernelIdeal.Region0.layer hidden
  rw [show V1 m ρ c main_arg0 = (m ((c : Thread nD τ).loc main_arg0)) from first_keeps_arg0 (W0 m ρ c),
    show V1 m ρ c main_v28 = neighbourSum (m ((c : Thread nD τ).loc main_arg0)) (m ((c : Thread nD τ).loc main_arg1)) (m ((c : Thread nD τ).loc main_arg2)) from first_neighbourSum (W0 m ρ c),
    show V1 m ρ c main_v8 = invDegreeCol (m ((c : Thread nD τ).loc main_arg2)) from first_invDegreeCol (W0 m ρ c),
    show V1 m ρ c main_v10 = weightT (m ((c : Thread nD τ).loc main_arg3)) from first_weight_v10 (W0 m ρ c),
    show V1 m ρ c main_v12 = weightT (m ((c : Thread nD τ).loc main_arg4)) from first_weight_v12 (W0 m ρ c),
    show V1 m ρ c main_v29 = biasRow (m ((c : Thread nD τ).loc main_arg5)) from first_biasRow (W0 m ρ c)]

/-- The edge sources, the edge targets and the second bias are where the launch left them. -/
theorem after_first_arg1 (c : Dev nD) : W2 m ρ c (Proc.devRef .tc main_arg1) = (m ((c : Thread nD τ).loc main_arg1)) :=
  (W2_of_ne m ρ c main_arg1 (by decide)).trans (first_keeps_arg1 (W0 m ρ c))
theorem after_first_arg2 (c : Dev nD) : W2 m ρ c (Proc.devRef .tc main_arg2) = (m ((c : Thread nD τ).loc main_arg2)) :=
  (W2_of_ne m ρ c main_arg2 (by decide)).trans (first_keeps_arg2 (W0 m ρ c))
theorem after_first_arg8 (c : Dev nD) : W2 m ρ c (Proc.devRef .tc main_arg8) = (m ((c : Thread nD τ).loc main_arg8)) :=
  (W2_of_ne m ρ c main_arg8 (by decide)).trans (first_keeps_arg8 (W0 m ρ c))

/-- The inverse-degree column is an INPUT of the first pallas_call: its array is as the region found it. -/
theorem after_first_invDegreeCol (c : Dev nD) : W2 m ρ c (Proc.devRef .tc main_v8) = invDegreeCol (m ((c : Thread nD τ).loc main_arg2)) :=
  (W2_arr m ρ c 2).trans (((dat0 (V1 m ρ) c).arrAt_in 2 rfl _).trans ((A_eq0 (V1 m ρ) c 2).trans (first_invDegreeCol (W0 m ρ c))))

/-- The second pair of weights is no array of the first pallas_call. -/
theorem after_first_weight_v14 (c : Dev nD) : W2 m ρ c (Proc.devRef .tc main_v14) = weightT (m ((c : Thread nD τ).loc main_arg6)) :=
  (W2_of_ne m ρ c main_v14 (by decide)).trans (first_weight_v14 (W0 m ρ c))
theorem after_first_weight_v16 (c : Dev nD) : W2 m ρ c (Proc.devRef .tc main_v16) = weightT (m ((c : Thread nD τ).loc main_arg7)) :=
  (W2_of_ne m ρ c main_v16 (by decide)).trans (first_weight_v16 (W0 m ρ c))

/-! ## Entering the second pallas_call -/

theorem second_entry_hidden (c : Dev nD) :
    V3 m ρ c main_v30 = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (second_keeps_v30 (W2 m ρ c)).trans (hidden_array m ρ c)

theorem second_entry_neighbourSum (c : Dev nD) :
    V3 m ρ c main_v42 = neighbourSum (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  refine (second_neighbourSum (W2 m ρ c)).trans ?_
  rw [hidden_array m ρ c, after_first_arg1 m ρ c, after_first_arg2 m ρ c]

theorem second_entry_invDegreeCol (c : Dev nD) : V3 m ρ c main_v8 = invDegreeCol (m ((c : Thread nD τ).loc main_arg2)) :=
  (second_keeps_v8 (W2 m ρ c)).trans (after_first_invDegreeCol m ρ c)
theorem second_entry_weight_v14 (c : Dev nD) : V3 m ρ c main_v14 = weightT (m ((c : Thread nD τ).loc main_arg6)) :=
  (second_keeps_v14 (W2 m ρ c)).trans (after_first_weight_v14 m ρ c)
theorem second_entry_weight_v16 (c : Dev nD) : V3 m ρ c main_v16 = weightT (m ((c : Thread nD τ).loc main_arg7)) :=
  (second_keeps_v16 (W2 m ρ c)).trans (after_first_weight_v16 m ρ c)
theorem second_entry_biasRow (c : Dev nD) : V3 m ρ c main_v43 = biasRow (m ((c : Thread nD τ).loc main_arg8)) := by
  refine (second_biasRow (W2 m ρ c)).trans ?_
  rw [after_first_arg8 m ρ c]

/-! ## The result -/

/-- THE RESULT BUFFER at the last boundary holds `result` of the argument arrays. -/
theorem result_array (c : Dev nD) :
    W4 m ρ c (Proc.devRef .tc main_v44)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ((Cert.KernelIdeal.Region1.array_eq (V3 m ρ) c).trans ?_)
  unfold Cert.KernelIdeal.Region1.layer result
  rw [second_entry_hidden m ρ c, second_entry_neighbourSum m ρ c, second_entry_invDegreeCol m ρ c,
    second_entry_weight_v14 m ρ c, second_entry_weight_v16 m ρ c, second_entry_biasRow m ρ c]

end Cert.KernelIdeal.Whole

end
-- ==== Proof.RefLayers.lean ====
/-
  The reference, layer by layer.

  The reference computes each layer with whole-array operations: the product of the features with the transposed
  self-weights, plus the product of (neighbour sums times the broadcast inverse-degree column) with the transposed
  neighbour-weights, plus the broadcast bias, and the rectifier after the first layer. Read at an entry `(r, c)`, a
  `dot_general` is the sum over the 128 contraction positions, the column broadcast reads the column at `(r, 0)` and
  the bias broadcast reads the bias row at `(0, c)`: each layer is the dense layer of the stages it reads.
-/
import proofs.«173662_j33724083208194_2_alg».proof.Proof.Gen.ReferenceIdeal.Read
import proofs.«173662_j33724083208194_2_alg».proof.Proof.SageDense

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx

variable (x0 : (⟨S100000x128, .f32⟩ : BufTy).Contents (Elt Ideal)) (x1 x2 : (⟨S1600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal))

/-- The first layer with its rectifier: the dense layer of the features, their neighbour sums, the inverse-degree
    column, the two transposed weights and the bias row. -/
theorem hidden_eq :
    val_main_v29 (F := Ideal) x0 x1 x2 x3 x4 x5
      = Cert.Sage.dense 100000 Cert.Sage.relu x0 (val_main_v17 (F := Ideal) x0 x1 x2) (val_main_v18 (F := Ideal) x2)
          (val_main_v21 (F := Ideal) x3) (val_main_v23 (F := Ideal) x4) (val_main_v26 (F := Ideal) x5) := by
  funext i
  obtain ⟨r, c, rfl⟩ : ∃ (r : Fin 100000) (c : Fin 128), i = ix2 r c := ⟨i 0, i 1, eq_ix2 i⟩
  have el : ∀ k : Fin 128, lidx_main_v22 (ix2 r c) k = ix2 r k := fun k => funext fun a => Fin.ext (by
    match a with | ⟨0, _⟩ => rfl | ⟨1, _⟩ => rfl)
  have er : ∀ k : Fin 128, ridx_main_v22 (ix2 r c) k = ix2 k c := fun k => funext fun a => Fin.ext (by
    match a with | ⟨0, _⟩ => rfl | ⟨1, _⟩ => rfl)
  have el' : ∀ k : Fin 128, lidx_main_v24 (ix2 r c) k = ix2 r k := fun k => funext fun a => Fin.ext (by
    match a with | ⟨0, _⟩ => rfl | ⟨1, _⟩ => rfl)
  have er' : ∀ k : Fin 128, ridx_main_v24 (ix2 r c) k = ix2 k c := fun k => funext fun a => Fin.ext (by
    match a with | ⟨0, _⟩ => rfl | ⟨1, _⟩ => rfl)
  have ecol : ∀ k : Fin 128, idx_main_v19 (ix2 r k) = ix2 r (0 : Fin 1) := fun k => funext fun a => Fin.ext (by
    match a with | ⟨0, _⟩ => rfl | ⟨1, _⟩ => rfl)
  have erow : idx_main_v27 (ix2 r c) = ix2 (0 : Fin 1) c := funext fun a => Fin.ext (by
    match a with | ⟨0, _⟩ => rfl | ⟨1, _⟩ => rfl)
  rw [val_main_v29_apply, val_main_v28_apply, val_main_v25_apply, val_main_v22_apply, val_main_v24_apply,
    val_main_v27_apply, val_main_call0_v0_apply, val_main_call0_cst_apply, Cert.Sage.dense_ix2]
  unfold Cert.Sage.relu
  show max ((∑ k : Fin 128, _) + (∑ k : Fin 128, _) + _) (Ideal.ofBits .f32 0x00000000#32) = max (_ + _ + _) 0
  refine congrArg₂ max ?_ Ideal.ofBits_zero_f32
  refine congrArg₂ (· + ·) (congrArg₂ (· + ·) (Finset.sum_congr rfl fun k _ => ?_) (Finset.sum_congr rfl fun k _ => ?_)) ?_
  · rw [el, er]
  · rw [el', er', val_main_v20_apply, val_main_v19_apply, ecol]; rfl
  · rw [erow]

/-- The second layer, no activation: the dense layer of the hidden features, their neighbour sums, the same
    inverse-degree column, the second pair of transposed weights and the second bias row. -/
theorem result_eq :
    val_main_v50 (F := Ideal) x0 x1 x2 x3 x4 x5 x6 x7 x8
      = Cert.Sage.dense 100000 id (val_main_v29 (F := Ideal) x0 x1 x2 x3 x4 x5) (val_main_v39 (F := Ideal) x0 x1 x2 x3 x4 x5)
          (val_main_v40 (F := Ideal) x2) (val_main_v43 (F := Ideal) x6) (val_main_v45 (F := Ideal) x7) (val_main_v48 (F := Ideal) x8) := by
  funext i
  obtain ⟨r, c, rfl⟩ : ∃ (r : Fin 100000) (c : Fin 128), i = ix2 r c := ⟨i 0, i 1, eq_ix2 i⟩
  have el : ∀ k : Fin 128, lidx_main_v44 (ix2 r c) k = ix2 r k := fun k => funext fun a => Fin.ext (by
    match a with | ⟨0, _⟩ => rfl | ⟨1, _⟩ => rfl)
  have er : ∀ k : Fin 128, ridx_main_v44 (ix2 r c) k = ix2 k c := fun k => funext fun a => Fin.ext (by
    match a with | ⟨0, _⟩ => rfl | ⟨1, _⟩ => rfl)
  have el' : ∀ k : Fin 128, lidx_main_v46 (ix2 r c) k = ix2 r k := fun k => funext fun a => Fin.ext (by
    match a with | ⟨0, _⟩ => rfl | ⟨1, _⟩ => rfl)
  have er' : ∀ k : Fin 128, ridx_main_v46 (ix2 r c) k = ix2 k c := fun k => funext fun a => Fin.ext (by
    match a with | ⟨0, _⟩ => rfl | ⟨1, _⟩ => rfl)
  have ecol : ∀ k : Fin 128, idx_main_v41 (ix2 r k) = ix2 r (0 : Fin 1) := fun k => funext fun a => Fin.ext (by
    match a with | ⟨0, _⟩ => rfl | ⟨1, _⟩ => rfl)
  have erow : idx_main_v49 (ix2 r c) = ix2 (0 : Fin 1) c := funext fun a => Fin.ext (by
    match a with | ⟨0, _⟩ => rfl | ⟨1, _⟩ => rfl)
  rw [val_main_v50_apply, val_main_v47_apply, val_main_v44_apply, val_main_v46_apply, val_main_v49_apply,
    Cert.Sage.dense_ix2]
  show (∑ k : Fin 128, _) + (∑ k : Fin 128, _) + _ = id (_ + _ + _)
  refine congrArg₂ (· + ·) (congrArg₂ (· + ·) (Finset.sum_congr rfl fun k _ => ?_) (Finset.sum_congr rfl fun k _ => ?_)) ?_
  · rw [el, er]
  · rw [el', er', val_main_v42_apply, val_main_v41_apply, ecol]; rfl
  · rw [erow]

end Cert.ReferenceIdeal.Layers

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.Bridge.lean ====
/-
  The two programs compute one function.

  The kernel program's result is the second dense layer of the hidden features, and so is the reference's; the
  hidden features are the rectified first dense layer on both sides. It remains to see that the operands agree.
  The neighbour sums are the same gather and scatter-add of the same index vectors (the kernel's changes of float
  format around the gather are the identity at the exact values). The inverse degrees are the same quotient; the kernel
  RESHAPES them to a column where the reference BROADCASTS them to one, and a reshape of `[n]` to `[n, 1]` and a
  broadcast along a new unit axis both read entry `r` at `(r, 0)`. Likewise the bias row: a reshape of `[n]` to
  `[1, n]` against a broadcast along a new leading unit axis. The weights are transposed on both sides.
-/
import proofs.«173662_j33724083208194_2_alg».proof.Proof.KernelValue
import proofs.«173662_j33724083208194_2_alg».proof.Proof.RefLayers
import proofs.«173662_j33724083208194_2_alg».proof.Proof.LibColumnCast
import Idealize.ShloMosaic.Lib.ValueLayout

noncomputable section

namespace Cert.Bridge

open Idealize.ShloMosaic Idealize.ShloMosaic.TcCoe Idealize.ShloMosaic.ValueIdx

/-! ## A reshape to a column or a row against a broadcast along a new unit axis -/

/-- `[n]` reshaped to `[n, 1]` is `[n]` broadcast along a new trailing unit axis. -/
theorem column_reshape_eq_broadcast {n : ℕ} (hn : n ≠ 1) (v : (⟨1, ![n]⟩ : Shape).Idx → EReal)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ ![0] h' v := by
  funext i
  obtain ⟨p, u, rfl⟩ : ∃ (p : Fin n) (u : Fin 1), i = ix2 p u := ⟨i 0, i 1, eq_ix2 i⟩
  rw [Cert.Lib.shapeCast_a_a1_apply]
  exact (broadcastInDim_apply _ h' v _ (ix1 p) (fun a => match a with
    | ⟨0, _⟩ => by show p.val = if n = 1 then 0 else p.val; rw [if_neg hn])).symm

/-- `[n]` reshaped to `[1, n]` is `[n]` broadcast along a new leading unit axis. -/
theorem row_reshape_eq_broadcast {n : ℕ} (hn : n ≠ 1) (v : (⟨1, ![n]⟩ : Shape).Idx → EReal)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ ![1] h' v := by
  funext i
  obtain ⟨u, q, rfl⟩ : ∃ (u : Fin 1) (q : Fin n), i = ix2 u q := ⟨i 0, i 1, eq_ix2 i⟩
  rw [shapeCast_a_1a_apply]
  exact (broadcastInDim_apply _ h' v _ (ix1 q) (fun a => match a with
    | ⟨0, _⟩ => by show q.val = if n = 1 then 0 else q.val; rw [if_neg hn])).symm

/-! ## The operands -/

variable (x0 : (⟨Cert.KernelIdeal.S100000x128, .f32⟩ : BufTy).Contents (Elt Ideal)) (x1 x2 : (⟨Cert.KernelIdeal.S1600000, .i32⟩ : BufTy).Contents (Elt Ideal))
  (x3 x4 : (⟨Cert.KernelIdeal.S128x128, .f32⟩ : BufTy).Contents (Elt Ideal)) (x5 : (⟨Cert.KernelIdeal.S128, .f32⟩ : BufTy).Contents (Elt Ideal))
  (x6 x7 : (⟨Cert.KernelIdeal.S128x128, .f32⟩ : BufTy).Contents (Elt Ideal)) (x8 : (⟨Cert.KernelIdeal.S128, .f32⟩ : BufTy).Contents (Elt Ideal))

theorem neighbourSum_first : Cert.KernelIdeal.Host.neighbourSum x0 x1 x2 = Cert.ReferenceIdeal.Read.val_main_v17 (F := Ideal) x0 x1 x2 := rfl

theorem neighbourSum_second (h : (⟨Cert.KernelIdeal.S100000x128, .f32⟩ : BufTy).Contents (Elt Ideal))
    (hh : h = Cert.ReferenceIdeal.Read.val_main_v29 (F := Ideal) x0 x1 x2 x3 x4 x5) :
    Cert.KernelIdeal.Host.neighbourSum h x1 x2 = Cert.ReferenceIdeal.Read.val_main_v39 (F := Ideal) x0 x1 x2 x3 x4 x5 := by
  subst hh; rfl

theorem invDegree_eq : Cert.KernelIdeal.Host.invDegree x2 = Cert.ReferenceIdeal.Read.val_main_v7 (F := Ideal) x2 := rfl

theorem invDegreeCol_first : Cert.KernelIdeal.Host.invDegreeCol x2 = Cert.ReferenceIdeal.Read.val_main_v18 (F := Ideal) x2 := by
  unfold Cert.KernelIdeal.Host.invDegreeCol Cert.ReferenceIdeal.Read.val_main_v18
  rw [invDegree_eq]
  exact column_reshape_eq_broadcast (by decide) _ _ _

theorem invDegreeCol_second : Cert.KernelIdeal.Host.invDegreeCol x2 = Cert.ReferenceIdeal.Read.val_main_v40 (F := Ideal) x2 := by
  unfold Cert.KernelIdeal.Host.invDegreeCol Cert.ReferenceIdeal.Read.val_main_v40
  rw [invDegree_eq]
  exact column_reshape_eq_broadcast (by decide) _ _ _

theorem weight_v21 : Cert.KernelIdeal.Host.weightT x3 = Cert.ReferenceIdeal.Read.val_main_v21 (F := Ideal) x3 := rfl
theorem weight_v23 : Cert.KernelIdeal.Host.weightT x4 = Cert.ReferenceIdeal.Read.val_main_v23 (F := Ideal) x4 := rfl
theorem weight_v43 : Cert.KernelIdeal.Host.weightT x6 = Cert.ReferenceIdeal.Read.val_main_v43 (F := Ideal) x6 := rfl
theorem weight_v45 : Cert.KernelIdeal.Host.weightT x7 = Cert.ReferenceIdeal.Read.val_main_v45 (F := Ideal) x7 := rfl

theorem biasRow_first : Cert.KernelIdeal.Host.biasRow x5 = Cert.ReferenceIdeal.Read.val_main_v26 (F := Ideal) x5 := by
  unfold Cert.KernelIdeal.Host.biasRow Cert.ReferenceIdeal.Read.val_main_v26
  exact row_reshape_eq_broadcast (by decide) _ _ _

theorem biasRow_second : Cert.KernelIdeal.Host.biasRow x8 = Cert.ReferenceIdeal.Read.val_main_v48 (F := Ideal) x8 := by
  unfold Cert.KernelIdeal.Host.biasRow Cert.ReferenceIdeal.Read.val_main_v48
  exact row_reshape_eq_broadcast (by decide) _ _ _

/-! ## The layers -/

/-- The hidden features of the kernel program are the reference's. -/
theorem hidden_eq : Cert.KernelIdeal.Whole.hidden x0 x1 x2 x3 x4 x5 = Cert.ReferenceIdeal.Read.val_main_v29 (F := Ideal) x0 x1 x2 x3 x4 x5 := by
  rw [Cert.ReferenceIdeal.Layers.hidden_eq]
  unfold Cert.KernelIdeal.Whole.hidden
  rw [neighbourSum_first, invDegreeCol_first, weight_v21, weight_v23, biasRow_first]

/-- The kernel program's result is the reference's. -/
theorem result_eq : Cert.KernelIdeal.Whole.result x0 x1 x2 x3 x4 x5 x6 x7 x8 = Cert.ReferenceIdeal.Read.val_main_v50 (F := Ideal) x0 x1 x2 x3 x4 x5 x6 x7 x8 := by
  rw [Cert.ReferenceIdeal.Layers.result_eq]
  unfold Cert.KernelIdeal.Whole.result
  rw [neighbourSum_second x0 x1 x2 x3 x4 x5 _ (hidden_eq x0 x1 x2 x3 x4 x5), hidden_eq, invDegreeCol_second, weight_v43, weight_v45,
    biasRow_second]

end Cert.Bridge

end
-- ==== Proof.lean ====
/-
  A two-layer mean-aggregating graph convolution: the tiled kernel program against its whole-array reference.

  Both programs compute, for node features `X`, edges `src → dst`, two pairs of 128×128 weights and two biases,

      H   = relu ( X·Wself₁ᵀ + (S(X) ⊙ d)·Wneigh₁ᵀ + b₁ ),
      out =        H·Wself₂ᵀ + (S(H) ⊙ d)·Wneigh₂ᵀ + b₂,

  where `S(Y)` adds row `src e` of `Y` into row `dst e` over the edges and `d = 1 / max(deg, 1)` is the column of
  inverse in-degrees. The kernel program computes `S` and `d` with the same host operations as the reference and
  each dense layer in a pallas_call over twenty blocks of 5000 rows; an entry of a dense layer reads only its own
  row of the row-indexed operands, so the blocks of the layer are the layers of the blocks and the twenty blocks tile
  the array. At the exact values no rounding happens and a matrix product into a zero accumulator is the plain sum
  over the contraction axis, so the two results are equal entry by entry, with no use of the finiteness of the
  inputs: only the order in which entries are produced differs, never the order of a sum.

  The modules: `SageDense` (the dense layer as a function of whole arrays; a block of rows of it), `DensePayload`
  (what each kernel body stores), `RegionFirst` / `RegionSecond` (the array each pallas_call leaves), `KernelHost`
  (the host operations around them), `KernelRun` (the run with its result named), `KernelValue` (the result as a
  function of the arguments), `RefLayers` (the reference layer by layer), `Bridge` (the two functions are one).
-/
import proofs.«173662_j33724083208194_2_alg».proof.Defs
import proofs.«173662_j33724083208194_2_alg».proof.Proof.Gen.Kernel
import proofs.«173662_j33724083208194_2_alg».proof.Proof.Gen.Kernel.Frame
import proofs.«173662_j33724083208194_2_alg».proof.Proof.Gen.KernelIdeal
import proofs.«173662_j33724083208194_2_alg».proof.Proof.Gen.KernelIdeal.Frame
import proofs.«173662_j33724083208194_2_alg».proof.Proof.Gen.ReferenceIdeal
import proofs.«173662_j33724083208194_2_alg».proof.Proof.Gen.ReferenceIdeal.Run
import proofs.«173662_j33724083208194_2_alg».proof.Proof.Gen.ReferenceIdeal.Read
import proofs.«173662_j33724083208194_2_alg».proof.Proof.Gen.Pre_finite_inputs
import proofs.«173662_j33724083208194_2_alg».proof.Proof.KernelRun
import proofs.«173662_j33724083208194_2_alg».proof.Proof.KernelValue
import proofs.«173662_j33724083208194_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and returns its arguments unchanged. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact values, from memories that agree on the arguments, the kernel program ends with its result array at
    the two-layer function of the arguments and the reference ends with the same array. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result_array m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Bridge.result_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
